-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x32x128 : Shape := ⟨3, ![10000, 32, 128]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32x128 : S_.BroadcastsInDim S10000x32x128 (![] : Fin 0 → Fin S10000x32x128.rank)
  reducesTo_S10000x32x128_S_d0_1_2 : S10000x32x128.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S10000x128 .f32) (main_arg1 : FVec F S10000x32x128 .f32) (main_arg2 : FVec F S10000x32x128 .f32) (main_arg3 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32x128 .f32 := Host.absf main_arg1
  let main_cst_0 : FVec F S_ .f32 := constant S_ .f32 0x7F800000#32
  let main_v5 : FVec F S10000x32x128 .f32 := broadcastInDim S10000x32x128 ![] bcast_S_S10000x32x128 main_cst_0
  let main_v6 : IVec S10000x32x128 1 := cmpf .olt main_v4 main_v5
  let main_c_1 : IVec S_ 1 := constantI S_ 1 1#1
  let main_v7 : IVec S_ 1 := (fun x v => Host.reduce IntOp.andi x v reducesTo_S10000x32x128_S_d0_1_2 h_S_) main_v6 main_c_1
  let main_v8 : IVec S_ 1 := andi main_v3 main_v7
  let main_v9 : FVec F S10000x32x128 .f32 := Host.absf main_arg2
  let main_cst_2 : FVec F S_ .f32 := constant S_ .f32 0x7F800000#32
  let main_v10 : FVec F S10000x32x128 .f32 := broadcastInDim S10000x32x128 ![] bcast_S_S10000x32x128 main_cst_2
  let main_v11 : IVec S10000x32x128 1 := cmpf .olt main_v9 main_v10
  let main_c_3 : IVec S_ 1 := constantI S_ 1 1#1
  let main_v12 : IVec S_ 1 := (fun x v => Host.reduce IntOp.andi x v reducesTo_S10000x32x128_S_d0_1_2 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Kernel.lean ====
abbrev S10000x128 : Shape := ⟨2, ![10000, 128]⟩
abbrev S10000x32x128 : Shape := ⟨3, ![10000, 32, 128]⟩
abbrev S1x128 : Shape := ⟨2, ![1, 128]⟩
abbrev S128x1 : Shape := ⟨2, ![128, 1]⟩
abbrev S128x128 : Shape := ⟨2, ![128, 128]⟩
abbrev S400x128 : Shape := ⟨2, ![400, 128]⟩
abbrev S400x32x128 : Shape := ⟨3, ![400, 32, 128]⟩
abbrev S400x1x128 : Shape := ⟨3, ![400, 1, 128]⟩
abbrev S12800x128 : Shape := ⟨2, ![12800, 128]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S10000x32x128, .f32⟩
  | .hbm, ⟨3, _⟩ => ⟨S1x128, .f32⟩
  | .hbm, ⟨4, _⟩ => ⟨S128x1, .f32⟩
  | .hbm, ⟨5, _⟩ => ⟨S128x128, .f32⟩
  | .hbm, ⟨6, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x32x128, .f32⟩
  | .local _ .vmem, ⟨3, _⟩ => ⟨S400x32x128, .f32⟩
  | .local _ .vmem, ⟨4, _⟩ => ⟨S400x32x128, .f32⟩
  | .local _ .vmem, ⟨5, _⟩ => ⟨S400x32x128, .f32⟩
  | .local _ .vmem, ⟨6, _⟩ => ⟨S128x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x128_S128x1 : S1x128.ShapeCasts S128x1
  bcast_S128x1_S128x128_0_1 : S128x1.BroadcastsInDim S128x128 (![0, 1] : Fin 2 → Fin S128x128.rank)
  inb_S400x128_S400x128_0_0 : ∀ a, (![0, 0] : Fin 2 → Nat) a + S400x128.size a ≤ S400x128.size a
  h_S400x128 : 0 < S400x128.numel
  inb_S400x32x128_S400x32x128_0_0_0 : ∀ a, (![0, 0, 0] : Fin 3 → Nat) a + S400x32x128.size a ≤ S400x32x128.size a
  h_S400x32x128 : 0 < S400x32x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S400x128_S400x1x128 : S400x128.ShapeCasts S400x1x128
  broadcasts_S400x1x128_S400x32x128 : S400x1x128.Broadcasts S400x32x128
  shapeCasts_S400x32x128_S12800x128 : S400x32x128.ShapeCasts S12800x128
  shapeCasts_S12800x128_S400x32x128 : S12800x128.ShapeCasts S400x32x128
  reduces_S400x32x128_S400x128 : S400x32x128.Reduces [1] S400x128
  dot_S12800x128_S128x128_S12800x128_1_0_0_1_n_n_wf : DotDims.WF S12800x128 S128x128 S12800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x128.size a ≤ S10000x32x128.size a
  hwx0_1 : ∀ i : grid0.Coords, EltTy.bits .f32 = 32 ∨ (Rect.block (s := S10000x32x128) S400x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32x128.size a ≤ S10000x32x128.size a
  hwx0_2 : ∀ i : grid0.Coords, EltTy.bits .f32 = 32 ∨ (Rect.block (s := S10000x32x128) S400x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x32x128 : Shape := ⟨3, ![10000, 32, 128]⟩
abbrev S1x128 : Shape := ⟨2, ![1, 128]⟩
abbrev S10000x1x128 : Shape := ⟨3, ![10000, 1, 128]⟩
abbrev S10000x32x1 : Shape := ⟨3, ![10000, 32, 1]⟩
abbrev S_ : Shape := ⟨0, ![]⟩
abbrev S10000x1 : Shape := ⟨2, ![10000, 1]⟩
abbrev S10000x1x1 : Shape := ⟨3, ![10000, 1, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x32x128, .f32⟩
  | .hbm, ⟨2, _⟩ => ⟨S10000x32x128, .f32⟩
  | .hbm, ⟨3, _⟩ => ⟨S1x128, .f32⟩
  | .hbm, ⟨4, _⟩ => ⟨S10000x1x128, .f32⟩
  | .hbm, ⟨5, _⟩ => ⟨S10000x32x128, .f32⟩
  | .hbm, ⟨6, _⟩ => ⟨S10000x32x128, .f32⟩
  | .hbm, ⟨7, _⟩ => ⟨S10000x32x128, .f32⟩
  | .hbm, ⟨8, _⟩ => ⟨S10000x32x1, .f32⟩
  | .hbm, ⟨9, _⟩ => ⟨S_, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x1x1, .f32⟩
  | .hbm, ⟨15, _⟩ => ⟨S10000x32x1, .f32⟩
  | .hbm, ⟨16, _⟩ => ⟨S10000x32x1, .f32⟩
  | .hbm, ⟨17, _⟩ => ⟨S10000x32x1, .f32⟩
  | .hbm, ⟨18, _⟩ => ⟨S_, .f32⟩
  | .hbm, ⟨19, _⟩ => ⟨S10000x1, .f32⟩
  | .hbm, ⟨20, _⟩ => ⟨S10000x1x1, .f32⟩
  | .hbm, ⟨21, _⟩ => ⟨S10000x32x1, .f32⟩
  | .hbm, ⟨22, _⟩ => ⟨S10000x32x1, .f32⟩
  | .hbm, ⟨23, _⟩ => ⟨S10000x32x128, .f32⟩
  | .hbm, ⟨24, _⟩ => ⟨S10000x32x128, .f32⟩
  | .hbm, ⟨25, _⟩ => ⟨S_, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S10000x128_S10000x1x128_0_2 : S10000x128.BroadcastsInDim S10000x1x128 (![0, 2] : Fin 2 → Fin S10000x1x128.rank)
  bcast_S10000x1x128_S10000x32x128_0_1_2 : S10000x1x128.BroadcastsInDim S10000x32x128 (![0, 1, 2] : Fin 3 → Fin S10000x32x128.rank)
  reducesTo_S10000x32x1_S10000x1_d1 : S10000x32x1.ReducesTo [1] S10000x1
  h_S_ : 0 < S_.numel
  bcast_S_S10000x1 : S_.BroadcastsInDim S10000x1 (![] : Fin 0 → Fin S10000x1.rank)
  bcast_S10000x1_S10000x1x1_0_2 : S10000x1.BroadcastsInDim S10000x1x1 (![0, 2] : Fin 2 → Fin S10000x1x1.rank)
  bcast_S10000x1x1_S10000x32x1_0_1_2 : S10000x1x1.BroadcastsInDim S10000x32x1 (![0, 1, 2] : Fin 3 → Fin S10000x32x1.rank)
  bcast_S10000x32x1_S10000x32x128_0_1_2 : S10000x32x1.BroadcastsInDim S10000x32x128 (![0, 1, 2] : Fin 3 → Fin S10000x32x128.rank)
  reducesTo_S10000x32x128_S10000x128_d1 : S10000x32x128.ReducesTo [1] S10000x128
  dot_S10000x32x128_S1x128_S10000x32x1_2_1_01_0_n_n_wf : DotDims.WF S10000x32x128 S1x128 S10000x32x1 [2] [1] [0, 1] [0] [] []

variable [Facts₀]

def dot_S10000x32x128_S1x128_S10000x32x1_2_1_01_0_n_n : DotDims S10000x32x128 S1x128 S10000x32x1 where
  lhsContracting := [2]
  rhsContracting := [1]
  lhsNonContracting := [0, 1]
  rhsNonContracting := [0]
  lhsBatch := []
  rhsBatch := []
  wf := dot_S10000x32x128_S1x128_S10000x32x1_2_1_01_0_n_n_wf

class Facts : Prop extends Facts₀ where

variable [Facts]
-- ==== Proof.LibSoftmaxShift.lean ====
/-
  The algebra behind a softmax-weighted sum, on the extended reals.

  For real scores σ d and real features φ d over a finite nonempty index type, and any real shift μ,

      ∑ d, (exp (σ d - μ) / ∑ d', exp (σ d' - μ)) · φ d  =  (∑ d, exp (σ d) · φ d) / (∑ d, exp (σ d)) :

  the shift multiplies numerator and denominator of every weight by the same positive number exp (-μ), and the common
  positive denominator leaves the sum. The same identity is then read on the extended reals, where exp, the quotient and
  the sums are the exact operations of the ideal float values, for entries that are real numbers; and the maximum of
  finitely many real numbers, folded from -∞, is a real number, so it may serve as the shift.
-/
import Idealize.ShloMosaic.PureOps.Ideal

noncomputable section

namespace Cert.SoftmaxLaw

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The shifted softmax weights sum the features to the unshifted quotient, over the reals. -/
theorem real_shift {ι : Type*} [Fintype ι] [Nonempty ι] (σ φ : ι → ℝ) (μ : ℝ) :
    ∑ d, Real.exp (σ d - μ) / (∑ d', Real.exp (σ d' - μ)) * φ d
      = (∑ d, Real.exp (σ d) * φ d) / (∑ d, Real.exp (σ d)) := by
  have hZ : 0 < ∑ d, Real.exp (σ d) := Finset.sum_pos (fun d _ => Real.exp_pos _) Finset.univ_nonempty
  have hμ : 0 < Real.exp μ := Real.exp_pos μ
  have hden : ∑ d', Real.exp (σ d' - μ) = (∑ d', Real.exp (σ d')) / Real.exp μ := by
    rw [Finset.sum_div Finset.univ (fun d' => Real.exp (σ d')) (Real.exp μ)]
    exact Finset.sum_congr rfl fun d _ => Real.exp_sub _ _
  rw [hden, Finset.sum_div Finset.univ (fun d => Real.exp (σ d) * φ d) (∑ d, Real.exp (σ d))]
  refine Finset.sum_congr rfl fun d _ => ?_
  rw [Real.exp_sub]
  field_simp

/-- The sum of exponentials of real scores is a positive real, in particular not zero. -/
theorem sum_exp_ne_zero {ι : Type*} [Fintype ι] [Nonempty ι] (σ : ι → ℝ) : (∑ d, Real.exp (σ d)) ≠ 0 :=
  ne_of_gt (Finset.sum_pos (fun d _ => Real.exp_pos _) Finset.univ_nonempty)

/-- The identity on the extended reals: for scores, features and a shift that are real numbers, the sum from zero of
    the shifted weights (each the exponential over the sum from zero of the exponentials) times the features is the
    quotient of the two unshifted sums. -/
theorem shift {ι : Type*} [Fintype ι] [Nonempty ι] (s f : ι → EReal) (M : EReal) (σ φ : ι → ℝ) (μ : ℝ)
    (hs : ∀ d, s d = (σ d : EReal)) (hf : ∀ d, f d = (φ d : EReal)) (hM : M = (μ : EReal)) :
    (0 : EReal) + ∑ d, Ideal.div (Ideal.exp (s d - M)) (0 + ∑ d', Ideal.exp (s d' - M)) * f d
      = Ideal.div (∑ d, Ideal.exp (s d) * f d) (∑ d, Ideal.exp (s d)) := by
  have e1 : ∀ d, Ideal.exp (s d - M) = ((Real.exp (σ d - μ) : ℝ) : EReal) := fun d => by
    rw [hs d, hM, ← EReal.coe_sub, Ideal.exp_coe]
  have e2 : ∀ d, Ideal.exp (s d) = ((Real.exp (σ d) : ℝ) : EReal) := fun d => by
    rw [hs d, Ideal.exp_coe]
  simp only [e1, e2, hf, zero_add, ← coe_sum, ← EReal.coe_mul]
  rw [Ideal.div_coe (sum_exp_ne_zero σ)]
  simp only [Ideal.div_coe (sum_exp_ne_zero fun d => σ d - μ), ← EReal.coe_mul, ← coe_sum]
  rw [EReal.coe_eq_coe_iff, mul_one_div, ← real_shift σ φ μ]
  exact Finset.sum_congr rfl fun d _ => by rw [mul_one_div]

/-- The fold of max from -∞ over a nonempty finite family of real numbers is a real number. -/
theorem fold_max_real {ι : Type*} (op : EReal → EReal → EReal) [Std.Commutative op] [Std.Associative op]
    (hop : ∀ x y, op x y = max x y) (s : Finset ι) (hne : s.Nonempty) (f : ι → EReal) (hf : ∀ i, ∃ r : ℝ, f i = (r : EReal)) :
    ∃ r : ℝ, s.fold op ⊥ f = (r : EReal) := by
  classical
  have key : ∀ t : Finset ι, (t.fold op ⊥ f = ⊥ ∧ t = ∅) ∨ ∃ r : ℝ, t.fold op ⊥ f = (r : EReal) := by
    intro t
    refine Finset.induction_on t ?_ ?_
    · exact Or.inl ⟨Finset.fold_empty, rfl⟩
    · intro a t ha ih
      refine Or.inr ?_
      rw [Finset.fold_insert ha, hop]
      obtain ⟨ra, hra⟩ := hf a
      rcases ih with ⟨hb, _⟩ | ⟨r, hr⟩
      · rw [hb, hra]; exact ⟨ra, max_eq_left bot_le⟩
      · rw [hr, hra]
        rcases max_choice (ra : EReal) (r : EReal) with h | h
        · exact ⟨ra, h⟩
        · exact ⟨r, h⟩
  rcases key s with ⟨_, he⟩ | h
  · exact absurd he hne.ne_empty
  · exact h

end Cert.SoftmaxLaw

end
-- ==== Proof.Spec.lean ====
/-
  The attention reduce, as one function of the four argument arrays.

  For node n, neighbour d and lane c, with a1 : [10000, 128], a2, ft : [10000, 32, 128] and the weight row W : [1, 128]:

      score n d  =  ∑ k, tanh (a1 (n, k) + a2 (n, d, k)) · W (0, k)
      attn (n, c) =  (∑ d, exp (score n d) · ft (n, d, c)) / (∑ d, exp (score n d))

  on the extended reals: the softmax over the 32 neighbours of the scores, weighting the neighbours' features. When every
  argument entry is a real number every score is one.
-/
import Idealize.ShloMosaic.PureOps.Ideal
import Idealize.ShloMosaic.Lib.ValueIdx
import proofs.«125559_g1451698946386_cont_week2b_1105_9_alg».proof.Proof.LibSoftmaxShift

noncomputable section

namespace Cert.Attn

open Idealize.ShloMosaic Idealize.ShloMosaic.ValueIdx

abbrev SNode : Shape := ⟨2, ![10000, 128]⟩
abbrev SMail : Shape := ⟨3, ![10000, 32, 128]⟩
abbrev SRow : Shape := ⟨2, ![1, 128]⟩

/-- The score of neighbour d of node n: the weight row applied to tanh (a1 n + a2 n d). -/
def score (a1 : SNode.Idx → EReal) (a2 : SMail.Idx → EReal) (W : SRow.Idx → EReal) (n : Fin 10000) (d : Fin 32) : EReal :=
  ∑ k : Fin 128, Ideal.tanh (a1 (ix2 n k) + a2 (ix3 n d k)) * W (ix2 (0 : Fin 1) k)

/-- The softmax-weighted sum of the neighbours' features, normalised once. -/
def attn (a1 : SNode.Idx → EReal) (a2 ft : SMail.Idx → EReal) (W : SRow.Idx → EReal) : SNode.Idx → EReal := fun i =>
  Ideal.div (∑ d : Fin 32, Ideal.exp (score a1 a2 W (i 0) d) * ft (ix3 (i 0) d (i 1)))
    (∑ d : Fin 32, Ideal.exp (score a1 a2 W (i 0) d))

theorem attn_apply (a1 : SNode.Idx → EReal) (a2 ft : SMail.Idx → EReal) (W : SRow.Idx → EReal) (n : Fin 10000) (c : Fin 128) :
    attn a1 a2 ft W (ix2 n c)
      = Ideal.div (∑ d : Fin 32, Ideal.exp (score a1 a2 W n d) * ft (ix3 n d c)) (∑ d : Fin 32, Ideal.exp (score a1 a2 W n d)) := rfl

/-- With real entries every score is a real number. -/
theorem score_real (a1 : SNode.Idx → EReal) (a2 : SMail.Idx → EReal) (W : SRow.Idx → EReal)
    (h1 : ∀ i, ∃ r : ℝ, a1 i = (r : EReal)) (h2 : ∀ i, ∃ r : ℝ, a2 i = (r : EReal)) (hW : ∀ i, ∃ r : ℝ, W i = (r : EReal))
    (n : Fin 10000) (d : Fin 32) : ∃ r : ℝ, score a1 a2 W n d = (r : EReal) := by
  choose r1 e1 using h1
  choose r2 e2 using h2
  choose rW eW using hW
  refine ⟨∑ k : Fin 128, Real.tanh (r1 (ix2 n k) + r2 (ix3 n d k)) * rW (ix2 (0 : Fin 1) k), ?_⟩
  unfold score
  simp only [e1, e2, eW, ← EReal.coe_add, Ideal.tanh_coe, ← EReal.coe_mul, ← Cert.SoftmaxLaw.coe_sum]

end Cert.Attn

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.KernelBody.lean ====
/-
  What the kernel body computes on one block of 400 nodes, read at a coordinate.

  The body adds the node rows of a1 (spread over the 32 neighbours) to a2, takes tanh, lays the 400 × 32 neighbour rows out
  as 12800 rows, multiplies them by the staged 128 × 128 weight matrix into a zero accumulator, lays the product back out
  as [400, 32, 128], exponentiates, and divides the sum over the neighbours of exp · ft by the sum of exp. At node p of
  the block and lane q this is

      (∑ d, exp (S p d q) · ft (p, d, q)) / (∑ d, exp (S p d q)),   S p d q = ∑ k, tanh (a1 (p, k) + a2 (p, d, k)) · w (k, q).

  Row 32·p + d of the 12800-row layout is neighbour d of node p: both layouts have the same row-major position.
-/
import proofs.«125559_g1451698946386_cont_week2b_1105_9_alg».proof.Proof.Gen.KernelIdeal.Skeleton
import proofs.«125559_g1451698946386_cont_week2b_1105_9_alg».proof.Proof.LibPlainDot
import Idealize.ShloMosaic.Lib.Pipeline.Value
import Idealize.ShloMosaic.Lib.ValueIdx
import Idealize.ShloMosaic.PureOps.Ideal.Laws

noncomputable section

namespace Cert.KernelIdeal.AttnBody

open Cert.KernelIdeal Cert.KernelIdeal.Gen Idealize.ShloMosaic Idealize.ShloMosaic.ValueIdx

/-- Neighbour d of node p is row 32·p + d of the flattened block. -/
def flatRow (p : Fin 400) (d : Fin 32) : Fin 12800 := ⟨p.val * 32 + d.val, by have := p.isLt; have := d.isLt; omega⟩

/-- A [400, 128] block given a unit middle axis and spread over 32 neighbours, at (p, d, k), is the block at (p, k). -/
theorem spread_apply (x0 : FVec Ideal S400x128 .f32) (p : Fin 400) (d : Fin 32) (k : Fin 128) :
    broadcastTo S400x32x128 (shapeCast S400x1x128 x0 shapeCasts_S400x128_S400x1x128) broadcasts_S400x1x128_S400x32x128 (ix3 p d k)
      = x0 (ix2 p k) := by
  refine (broadcastTo_apply _ broadcasts_S400x1x128_S400x32x128 (ix3 p d k) (ix3 p (0 : Fin 1) k) (fun a => ?_)).trans ?_
  · match a with
    | ⟨0, _⟩ => show p.val = if (400 : Nat) = 1 then 0 else p.val; rw [if_neg (by decide)]
    | ⟨1, _⟩ => show 0 = if (1 : Nat) = 1 then 0 else d.val; rw [if_pos rfl]
    | ⟨2, _⟩ => show k.val = if (128 : Nat) = 1 then 0 else k.val; rw [if_neg (by decide)]
  · refine shapeCast_apply x0 shapeCasts_S400x128_S400x1x128 (ix3 p (0 : Fin 1) k) (ix2 p k) ?_
    rw [Shape.rowMajor_val_two, Shape.rowMajor_val_three]
    show p.val * 128 + k.val = (p.val * 1 + 0) * 128 + k.val
    omega

/-- The [400, 32, 128] array laid out as 12800 rows, at row 32·p + d and lane k, is the array at (p, d, k). -/
theorem flatten_apply (v : FVec Ideal S400x32x128 .f32) (p : Fin 400) (d : Fin 32) (k : Fin 128) :
    shapeCast S12800x128 v shapeCasts_S400x32x128_S12800x128 (ix2 (flatRow p d) k) = v (ix3 p d k) := by
  refine shapeCast_apply v shapeCasts_S400x32x128_S12800x128 (ix2 (flatRow p d) k) (ix3 p d k) ?_
  rw [Shape.rowMajor_val_two, Shape.rowMajor_val_three]
  show (p.val * 32 + d.val) * 128 + k.val = (p.val * 32 + d.val) * 128 + k.val
  rfl

/-- The 12800 rows laid back out as [400, 32, 128], at (p, d, q), are row 32·p + d at lane q. -/
theorem unflatten_apply (v : FVec Ideal S12800x128 .f32) (p : Fin 400) (d : Fin 32) (q : Fin 128) :
    shapeCast S400x32x128 v shapeCasts_S12800x128_S400x32x128 (ix3 p d q) = v (ix2 (flatRow p d) q) := by
  refine shapeCast_apply v shapeCasts_S12800x128_S400x32x128 (ix3 p d q) (ix2 (flatRow p d) q) ?_
  rw [Shape.rowMajor_val_two, Shape.rowMajor_val_three]
  show (p.val * 32 + d.val) * 128 + q.val = (p.val * 32 + d.val) * 128 + q.val
  rfl

/-- The product of the 12800 rows with the 128 × 128 matrix into the zero accumulator, at (i, q): the sum over k. -/
theorem dot_apply (l : FVec Ideal S12800x128 .f32) (r : FVec Ideal S128x128 .f32) (i : Fin 12800) (q : Fin 128) :
    matmul dot_S12800x128_S128x128_S12800x128_1_0_0_1_n_n none l r (constant (F := Ideal) S12800x128 .f32 0x00000000#32) (ix2 i q)
      = ∑ k : Fin 128, l (ix2 i k) * r (ix2 k q) :=
  Cert.Lib.PlainDot.matmul_zero_ix2 dot_S12800x128_S128x128_S12800x128_1_0_0_1_n_n rfl rfl
    (fun j c => by
      unfold DotDims.lhsIdx
      rw [dif_neg (show ¬(0 : Fin S12800x128.rank) ∈ dot_S12800x128_S128x128_S12800x128_1_0_0_1_n_n.lhsBatch by decide),
        dif_pos (show (0 : Fin S12800x128.rank) ∈ dot_S12800x128_S128x128_S12800x128_1_0_0_1_n_n.lhsNonContracting by decide)]
      rfl)
    (fun j c => dot_S12800x128_S128x128_S12800x128_1_0_0_1_n_n.lhsIdx_val_of_single rfl j c)
    (fun j c => dot_S12800x128_S128x128_S12800x128_1_0_0_1_n_n.rhsIdx_val_of_single rfl j c)
    (fun j c => by
      unfold DotDims.rhsIdx
      rw [dif_neg (show ¬(1 : Fin S128x128.rank) ∈ dot_S12800x128_S128x128_S12800x128_1_0_0_1_n_n.rhsBatch by decide),
        dif_pos (show (1 : Fin S128x128.rank) ∈ dot_S12800x128_S128x128_S12800x128_1_0_0_1_n_n.rhsNonContracting by decide)]
      rfl)
    none l r i q

/-- The reduced index (p, q) with neighbour d put back is (p, d, q). -/
theorem lift_block (h : S400x32x128.Reduces [1] S400x128) (p : Fin 400) (q : Fin 128) (d : Fin (S400x32x128.size 1)) :
    h.lift (ix2 p q) d = ix3 p (⟨d.val, d.isLt⟩ : Fin 32) q := by
  funext c; apply Fin.ext
  fin_cases c <;> rfl

/-- The sum over the neighbour axis of a [400, 32, 128] array, at (p, q). -/
theorem laneSum_apply (v : FVec Ideal S400x32x128 .f32) (p : Fin 400) (q : Fin 128) :
    multiReduction .add [1] S400x128 v 0x00000000#32 reduces_S400x32x128_S400x128 (.inl rfl) rfl (ix2 p q)
      = ∑ d : Fin 32, v (ix3 p d q) := by
  refine (Ideal.multiReduction_add_single v 0x00000000#32 reduces_S400x32x128_S400x128 (.inl rfl) rfl (ix2 p q)).trans ?_
  exact Finset.sum_congr rfl fun d _ => congrArg v (lift_block reduces_S400x32x128_S400x128 p q d)

/-- The block's scores, lane-replicated by the matrix: the product laid back out as [400, 32, 128]. -/
def blockScore (x0 : FVec Ideal S400x128 .f32) (x1 : FVec Ideal S400x32x128 .f32) (x3 : FVec Ideal S128x128 .f32) : FVec Ideal S400x32x128 .f32 :=
  shapeCast S400x32x128
    (matmul dot_S12800x128_S128x128_S12800x128_1_0_0_1_n_n none
      (shapeCast S12800x128
        (tanh (addf (broadcastTo S400x32x128 (shapeCast S400x1x128 x0 shapeCasts_S400x128_S400x1x128) broadcasts_S400x1x128_S400x32x128) x1))
        shapeCasts_S400x32x128_S12800x128)
      (shapeCast S128x128 x3 shapeCasts_S128x128_S128x128)
      (constant (F := Ideal) S12800x128 .f32 0x00000000#32))
    shapeCasts_S12800x128_S400x32x128

theorem blockScore_apply (x0 : FVec Ideal S400x128 .f32) (x1 : FVec Ideal S400x32x128 .f32) (x3 : FVec Ideal S128x128 .f32)
    (p : Fin 400) (d : Fin 32) (q : Fin 128) :
    blockScore x0 x1 x3 (ix3 p d q) = ∑ k : Fin 128, Ideal.tanh (x0 (ix2 p k) + x1 (ix3 p d k)) * x3 (ix2 k q) := by
  unfold blockScore
  refine (unflatten_apply _ p d q).trans ?_
  refine (dot_apply _ _ (flatRow p d) q).trans ?_
  refine Finset.sum_congr rfl fun k _ => ?_
  rw [shapeCast_self]
  refine congrArg (· * x3 (ix2 k q)) ?_
  refine (flatten_apply _ p d k).trans ?_
  show Ideal.tanh (broadcastTo S400x32x128 (shapeCast S400x1x128 x0 shapeCasts_S400x128_S400x1x128) broadcasts_S400x1x128_S400x32x128 (ix3 p d k) + x1 (ix3 p d k)) = _
  rw [spread_apply]

/-- The body's stored value is the quotient of the two neighbour sums over the block's scores. -/
theorem pay_eq (x0 : FVec Ideal S400x128 .f32) (x1 x2 : FVec Ideal S400x32x128 .f32) (x3 : FVec Ideal S128x128 .f32) :
    k0_pay1 (F := Ideal) x0 x1 x2 x3
      = divf (multiReduction .add [1] S400x128 (mulf (exp (blockScore x0 x1 x3)) x2) 0x00000000#32 reduces_S400x32x128_S400x128 (.inl rfl) rfl)
          (multiReduction .add [1] S400x128 (exp (blockScore x0 x1 x3)) 0x00000000#32 reduces_S400x32x128_S400x128 (.inl rfl) rfl) := rfl

/-- THE BODY'S STORED VALUE at node p of the block and lane q. -/
theorem pay_apply (x0 : FVec Ideal S400x128 .f32) (x1 x2 : FVec Ideal S400x32x128 .f32) (x3 : FVec Ideal S128x128 .f32)
    (p : Fin 400) (q : Fin 128) :
    k0_pay1 (F := Ideal) x0 x1 x2 x3 (ix2 p q)
      = Ideal.div (∑ d : Fin 32, Ideal.exp (∑ k : Fin 128, Ideal.tanh (x0 (ix2 p k) + x1 (ix3 p d k)) * x3 (ix2 k q)) * x2 (ix3 p d q))
          (∑ d : Fin 32, Ideal.exp (∑ k : Fin 128, Ideal.tanh (x0 (ix2 p k) + x1 (ix3 p d k)) * x3 (ix2 k q))) := by
  rw [pay_eq]
  refine (divf_apply _ _ _).trans ?_
  rw [laneSum_apply, laneSum_apply]
  refine congrArg₂ Ideal.div (Finset.sum_congr rfl fun d _ => ?_) (Finset.sum_congr rfl fun d _ => ?_)
  · show Ideal.exp (blockScore x0 x1 x3 (ix3 p d q)) * x2 (ix3 p d q) = _
    rw [blockScore_apply]
  · show Ideal.exp (blockScore x0 x1 x3 (ix3 p d q)) = _
    rw [blockScore_apply]

end Cert.KernelIdeal.AttnBody

end
-- ==== Proof.AttnValue.lean ====
/-
  The kernel's result array is the attention reduce of its arguments.

  The grid has 25 points; point t stages rows 400·t … 400·t + 399 of a1, a2 and ft and the whole 128 × 128 weight matrix,
  and writes back rows 400·t … 400·t + 399 of the result. The weight matrix is made on the host before the launch: the
  weight row W : [1, 128] recast as a column [128, 1] and spread over 128 lanes, so that its entry (k, q) is W (0, k) for
  every lane q. Hence every lane of a block's product carries the node's scores, and what point t writes back is block t
  of the attention reduce; the 25 blocks tile the 10000 rows.
-/
import proofs.«125559_g1451698946386_cont_week2b_1105_9_alg».proof.Proof.Gen.KernelIdeal.Value
import proofs.«125559_g1451698946386_cont_week2b_1105_9_alg».proof.Proof.KernelBody
import proofs.«125559_g1451698946386_cont_week2b_1105_9_alg».proof.Proof.Spec
import Idealize.ShloMosaic.Lib.StableHlo.Run

noncomputable section

namespace Cert.KernelIdeal.AttnValue

open Cert.KernelIdeal Cert.KernelIdeal.Gen Cert.KernelIdeal.AttnBody Cert.Attn
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- On a block of 400 nodes that reads node n's rows of the arguments at its row p, and a weight matrix whose every lane is
    the weight row, the body's stored value at (p, q) is the attention reduce at (n, q). -/
theorem block_eq (a1 : SNode.Idx → EReal) (a2 ft : SMail.Idx → EReal) (W : SRow.Idx → EReal)
    (x0 : FVec Ideal S400x128 .f32) (x1 x2 : FVec Ideal S400x32x128 .f32) (x3 : FVec Ideal S128x128 .f32)
    (n : Fin 10000) (p : Fin 400)
    (h0 : ∀ k : Fin 128, x0 (ix2 p k) = a1 (ix2 n k))
    (h1 : ∀ (d : Fin 32) (k : Fin 128), x1 (ix3 p d k) = a2 (ix3 n d k))
    (h2 : ∀ (d : Fin 32) (k : Fin 128), x2 (ix3 p d k) = ft (ix3 n d k))
    (h3 : ∀ k q : Fin 128, x3 (ix2 k q) = W (ix2 (0 : Fin 1) k)) (q : Fin 128) :
    k0_pay1 (F := Ideal) x0 x1 x2 x3 (ix2 p q) = attn a1 a2 ft W (ix2 n q) := by
  rw [pay_apply, attn_apply]
  unfold score
  simp only [h0, h1, h2, h3]

/-- The printed index maps over the 25 points: the node-blocked windows move with the point, the weight matrix stays. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The weight matrix as the region finds it: entry (k, q) is W (0, k). -/
theorem V_weights (c : Dev nD) (k q : Fin 128) :
    (V m c main_call0_v1 : S128x128.Idx → EReal) (ix2 k q)
      = (m ((c : Thread nD τ).loc main_arg3) : S1x128.Idx → EReal) (ix2 (0 : Fin 1) k) := by
  have e : (V m c main_call0_v1 : S128x128.Idx → EReal)
      = broadcastInDim S128x128 ![0, 1] bcast_S128x1_S128x128_0_1
          (shapeCast S128x1 (m ((c : Thread nD τ).loc main_arg3) : S1x128.Idx → EReal) shapeCasts_S1x128_S128x1) := by
    dsimp only [Gen.V, Gen.hostOps0]; after_results; rfl
  rw [e]
  refine (broadcastInDim_apply _ bcast_S128x1_S128x128_0_1 _ (ix2 k q) (ix2 k (0 : Fin 1)) (fun a => ?_)).trans ?_
  · match a with
    | ⟨0, _⟩ => show k.val = if (128 : Nat) = 1 then 0 else k.val; rw [if_neg (by decide)]
    | ⟨1, _⟩ => show 0 = if (1 : Nat) = 1 then 0 else q.val; rw [if_pos rfl]
  · refine shapeCast_apply _ shapeCasts_S1x128_S128x1 (ix2 k (0 : Fin 1)) (ix2 (0 : Fin 1) k) ?_
    rw [Shape.rowMajor_val_two, Shape.rowMajor_val_two]
    show 0 * 128 + k.val = k.val * 1 + 0
    omega

/-- Row p of point t's block of a1 is row 400·t + p of a1. -/
theorem iblk0_apply (c : Dev nD) (t : Fin cfg0.N) (p : Fin 400) (k : Fin 128) (n : Fin 10000) (hn : n.val = t.val * 400 + p.val) :
    (iblk m c 0 t : Vec Ideal S400x128 .f32) (ix2 p k)
      = (m ((c : Thread nD τ).loc main_arg0) : S10000x128.Idx → EReal) (ix2 n k) := by
  obtain ⟨i00, i01, -⟩ := idx_facts t
  unfold iblk
  rw [View.read_apply]
  show (V m c main_arg0 : S10000x128.Idx → EReal) _ = _
  rw [V_main_arg0]
  refine congrArg (m ((c : Thread nD τ).loc main_arg0) : S10000x128.Idx → EReal) (funext fun a => Fin.ext ?_)
  match a with
  | ⟨0, _⟩ => show win0_0.index t (0 : Fin 2) * 400 + 1 * p.val = n.val; rw [i00, hn]; omega
  | ⟨1, _⟩ => show win0_0.index t (1 : Fin 2) * 128 + 1 * k.val = k.val; rw [i01]; omega

/-- Row p of point t's block of a2 is row 400·t + p of a2. -/
theorem iblk1_apply (c : Dev nD) (t : Fin cfg0.N) (p : Fin 400) (d : Fin 32) (k : Fin 128) (n : Fin 10000) (hn : n.val = t.val * 400 + p.val) :
    (iblk m c 1 t : Vec Ideal S400x32x128 .f32) (ix3 p d k)
      = (m ((c : Thread nD τ).loc main_arg1) : S10000x32x128.Idx → EReal) (ix3 n d k) := by
  obtain ⟨-, -, i10, i11, i12, -⟩ := idx_facts t
  unfold iblk
  rw [View.read_apply]
  show (V m c main_arg1 : S10000x32x128.Idx → EReal) _ = _
  rw [V_main_arg1]
  refine congrArg (m ((c : Thread nD τ).loc main_arg1) : S10000x32x128.Idx → EReal) (funext fun a => Fin.ext ?_)
  match a with
  | ⟨0, _⟩ => show win0_1.index t (0 : Fin 3) * 400 + 1 * p.val = n.val; rw [i10, hn]; omega
  | ⟨1, _⟩ => show win0_1.index t (1 : Fin 3) * 32 + 1 * d.val = d.val; rw [i11]; omega
  | ⟨2, _⟩ => show win0_1.index t (2 : Fin 3) * 128 + 1 * k.val = k.val; rw [i12]; omega

/-- Row p of point t's block of ft is row 400·t + p of ft. -/
theorem iblk2_apply (c : Dev nD) (t : Fin cfg0.N) (p : Fin 400) (d : Fin 32) (k : Fin 128) (n : Fin 10000) (hn : n.val = t.val * 400 + p.val) :
    (iblk m c 2 t : Vec Ideal S400x32x128 .f32) (ix3 p d k)
      = (m ((c : Thread nD τ).loc main_arg2) : S10000x32x128.Idx → EReal) (ix3 n d k) := by
  obtain ⟨-, -, -, -, -, i20, i21, i22, -⟩ := idx_facts t
  unfold iblk
  rw [View.read_apply]
  show (V m c main_arg2 : S10000x32x128.Idx → EReal) _ = _
  rw [V_main_arg2]
  refine congrArg (m ((c : Thread nD τ).loc main_arg2) : S10000x32x128.Idx → EReal) (funext fun a => Fin.ext ?_)
  match a with
  | ⟨0, _⟩ => show win0_2.index t (0 : Fin 3) * 400 + 1 * p.val = n.val; rw [i20, hn]; omega
  | ⟨1, _⟩ => show win0_2.index t (1 : Fin 3) * 32 + 1 * d.val = d.val; rw [i21]; omega
  | ⟨2, _⟩ => show win0_2.index t (2 : Fin 3) * 128 + 1 * k.val = k.val; rw [i22]; omega

/-- Every point's block of the weight matrix is the whole matrix: entry (k, q) is W (0, k). -/
theorem iblk3_apply (c : Dev nD) (t : Fin cfg0.N) (k q : Fin 128) :
    (iblk m c 3 t : Vec Ideal S128x128 .f32) (ix2 k q)
      = (m ((c : Thread nD τ).loc main_arg3) : S1x128.Idx → EReal) (ix2 (0 : Fin 1) k) := by
  obtain ⟨-, -, -, -, -, -, -, -, i30, i31, -⟩ := idx_facts t
  unfold iblk
  rw [View.read_apply]
  refine Eq.trans ?_ (V_weights m c k q)
  show (V m c main_call0_v1 : S128x128.Idx → EReal) _ = _
  refine congrArg (V m c main_call0_v1 : S128x128.Idx → EReal) (funext fun a => Fin.ext ?_)
  match a with
  | ⟨0, _⟩ => show win0_3.index t (0 : Fin 2) * 128 + 1 * k.val = k.val; rw [i30]; omega
  | ⟨1, _⟩ => show win0_3.index t (1 : Fin 2) * 128 + 1 * q.val = q.val; rw [i31]; omega

/-- WHAT POINT t WRITES BACK is block t of the attention reduce of the arguments. -/
theorem flushed_eq (c : Dev nD) (t : Fin cfg0.N) :
    (dats m 0 c).flushed 4 t = ((cfg0.win 4).blk t).view.read (Elt Ideal)
      (attn (m ((c : Thread nD τ).loc main_arg0)) (m ((c : Thread nD τ).loc main_arg1)) (m ((c : Thread nD τ).loc main_arg2))
        (m ((c : Thread nD τ).loc main_arg3))) := by
  rw [Cert.KernelIdeal.Value.flushed4]
  unfold Gen.out0_4
  rw [View.canon_unit_zero zeros2]
  simp only [View.ld_unit_zero (S := S400x128) zeros2, View.ld_unit_zero (S := S400x32x128) zeros3, View.ld_unit_zero (S := S128x128) zeros2]
  funext y
  obtain ⟨p, q, rfl⟩ : ∃ (p : Fin 400) (q : Fin 128), y = ix2 p q := ⟨y 0, y 1, eq_ix2 y⟩
  have ht : t.val < 25 := lt_of_lt_of_eq t.isLt N_0
  have hn : t.val * 400 + p.val < 10000 := by have := p.isLt; omega
  obtain ⟨-, -, -, -, -, -, -, -, -, -, i40, i41⟩ := idx_facts t
  have he : ((cfg0.win 4).blk t).view.emb (ix2 p q) = ix2 (⟨t.val * 400 + p.val, hn⟩ : Fin 10000) q := funext fun a => Fin.ext (by
    match a with
    | ⟨0, _⟩ => show win0_4.index t (0 : Fin 2) * 400 + 1 * p.val = t.val * 400 + p.val; rw [i40]; omega
    | ⟨1, _⟩ => show win0_4.index t (1 : Fin 2) * 128 + 1 * q.val = q.val; rw [i41]; omega)
  rw [View.read_apply, he]
  exact block_eq _ _ _ _ (iblk m c 0 t) (iblk m c 1 t) (iblk m c 2 t) (iblk m c 3 t) ⟨t.val * 400 + p.val, hn⟩ p
    (fun k => iblk0_apply m c t p k _ rfl) (fun d k => iblk1_apply m c t p d k _ rfl) (fun d k => iblk2_apply m c t p d k _ rfl)
    (fun k q => iblk3_apply m c t k q) q

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- The 25 blocks tile the array: row r is in the block of point r / 400. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  refine ⟨⟨(i 0).val / 400, by rw [hN]; omega⟩, flush0_4 _, ?_⟩
  rw [mem_blk]
  obtain ⟨-, -, -, -, -, -, -, -, -, -, i40, i41⟩ := idx_facts ⟨(i 0).val / 400, by rw [hN]; omega⟩
  intro a
  match a with
  | ⟨0, _⟩ =>
    show win0_4.index _ (0 : Fin 2) * 400 ≤ (i 0).val ∧ (i 0).val < win0_4.index _ (0 : Fin 2) * 400 + 400
    rw [i40]
    show (i 0).val / 400 * 400 ≤ (i 0).val ∧ (i 0).val < (i 0).val / 400 * 400 + 400
    omega
  | ⟨1, _⟩ =>
    show win0_4.index _ (1 : Fin 2) * 128 ≤ (i 1).val ∧ (i 1).val < win0_4.index _ (1 : Fin 2) * 128 + 128
    rw [i41]
    omega

/-- THE RESULT ARRAY after the run is the attention reduce of the arguments. -/
theorem final (c : Dev nD) : (dats m 0 c).arrAt 4 cfg0.N
    = attn (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed_eq m c t) cover

/-- The kernel's run: every weakly fair execution ends with the result array at the attention reduce of the arguments and
    the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.AttnValue

end
-- ==== Proof.RefValue.lean ====
/-
  The reference computes the attention reduce.

  Read one operation at a time, the reference's result at (n, c) is

      0 + ∑ d, (exp (s d - M) / (0 + ∑ d', exp (s d' - M))) · ft (n, d, c),

  with s d the score of neighbour d of node n and M the maximum of the 32 scores (folded from -∞, then joined with -∞
  once more). With real argument entries the scores are real, so their maximum is, and the shift by M leaves the
  softmax weights: the result is the quotient of the two unshifted sums.
-/
import proofs.«125559_g1451698946386_cont_week2b_1105_9_alg».proof.Proof.Gen.ReferenceIdeal.Read
import proofs.«125559_g1451698946386_cont_week2b_1105_9_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

variable (x0 : (⟨S10000x128, .f32⟩ : BufTy).Contents (Elt Ideal)) (x1 x2 : (⟨S10000x32x128, .f32⟩ : BufTy).Contents (Elt Ideal))
  (x3 : (⟨S1x128, .f32⟩ : BufTy).Contents (Elt Ideal))

/-- The pattern 0xFF800000 denotes -∞. -/
theorem ofBits_neg_inf : Ideal.ofBits .f32 0xFF800000#32 = (⊥ : EReal) := by
  simp [Ideal.ofBits, Ideal.ieee]

/-- The contraction with the weight row, at (n, d, 0), is the score of neighbour d of node n. -/
theorem ref_score (n : Fin 10000) (d : Fin 32) :
    val_main_v4 (F := Ideal) x0 x1 x3 (ix3 n d (0 : Fin 1)) = score x0 x1 x3 n d := by
  rw [val_main_v4_apply]
  unfold score
  refine Finset.sum_congr rfl fun k _ => ?_
  rw [val_main_v3_apply, val_main_v2_apply, val_main_v1_apply, val_main_v0_apply]
  have e0 : idx_main_v0 (idx_main_v1 (lidx_main_v4 (ix3 n d (0 : Fin 1)) k)) = ix2 n k :=
    funext fun a => Fin.ext (by match a with | ⟨0, _⟩ => rfl | ⟨1, _⟩ => rfl)
  have e1 : lidx_main_v4 (ix3 n d (0 : Fin 1)) k = ix3 n d k :=
    funext fun a => Fin.ext (by match a with | ⟨0, _⟩ => rfl | ⟨1, _⟩ => rfl | ⟨2, _⟩ => rfl)
  have e3 : ridx_main_v4 (ix3 n d (0 : Fin 1)) k = ix2 (0 : Fin 1) k :=
    funext fun a => Fin.ext (by match a with | ⟨0, _⟩ => rfl | ⟨1, _⟩ => rfl)
  rw [e0, e1, e3]
  rfl

/-- The reduced index n with neighbour k put back is (n, k, 0). -/
theorem lift_mail (h : S10000x32x1.Reduces [1] S10000x1) (n : Fin 10000) (k : Fin (S10000x32x1.size 1)) :
    h.lift (ix2 n (0 : Fin 1)) k = ix3 n (⟨k.val, k.isLt⟩ : Fin 32) (0 : Fin 1) := by
  funext c; apply Fin.ext
  fin_cases c <;> rfl

/-- The shift: with real scores, the maximum over the neighbours (joined with -∞) is a real number. -/
theorem ref_max_real (n : Fin 10000) (hs : ∀ d, ∃ r : ℝ, score x0 x1 x3 n d = (r : EReal)) :
    ∃ μ : ℝ, val_main_v7 (F := Ideal) x0 x1 x3 (ix2 n (0 : Fin 1)) = (μ : EReal) := by
  have hR : S10000x32x1.Reduces [1] S10000x1 := by decide
  rw [val_main_v7_apply, val_main_v6_apply, val_main_cst_0_apply]
  unfold val_main_v5
  rw [Host.reduce_eq_fold_single FloatOps.maximumf _ _ reducesTo_S10000x32x1_S10000x1_d1 hR h_S_]
  rw [val_main_cst_apply, Ideal.ofBits_def, ofBits_neg_inf]
  obtain ⟨μ, hμ⟩ := Cert.SoftmaxLaw.fold_max_real (FloatOps.maximumf (F := Ideal) (φ := .f32)) (fun _ _ => rfl)
    (Finset.univ : Finset (Fin (S10000x32x1.size 1))) ⟨⟨0, (by show 0 < 32; decide)⟩, Finset.mem_univ _⟩
    (val_main_v4 (F := Ideal) x0 x1 x3 ∘ hR.lift (ix2 n (0 : Fin 1))) (fun k => by
      show ∃ r : ℝ, val_main_v4 (F := Ideal) x0 x1 x3 (hR.lift (ix2 n (0 : Fin 1)) k) = (r : EReal)
      rw [lift_mail, ref_score]
      exact hs _)
  refine ⟨μ, ?_⟩
  rw [hμ]
  exact max_eq_right bot_le

/-- The shifted score at (n, d, 0). -/
theorem ref_shifted (n : Fin 10000) (d : Fin 32) :
    val_main_v10 (F := Ideal) x0 x1 x3 (ix3 n d (0 : Fin 1))
      = score x0 x1 x3 n d - val_main_v7 (F := Ideal) x0 x1 x3 (ix2 n (0 : Fin 1)) := by
  rw [val_main_v10_apply, val_main_v9_apply, val_main_v8_apply, ref_score]
  have e : idx_main_v8 (idx_main_v9 (ix3 n d (0 : Fin 1))) = ix2 n (0 : Fin 1) :=
    funext fun a => Fin.ext (by match a with | ⟨0, _⟩ => rfl | ⟨1, _⟩ => rfl)
  rw [e]
  rfl

/-- Its exponential. -/
theorem ref_exp (n : Fin 10000) (d : Fin 32) :
    val_main_v11 (F := Ideal) x0 x1 x3 (ix3 n d (0 : Fin 1))
      = Ideal.exp (score x0 x1 x3 n d - val_main_v7 (F := Ideal) x0 x1 x3 (ix2 n (0 : Fin 1))) := by
  rw [val_main_v11_apply, ref_shifted]
  rfl

/-- The normaliser of node n: the sum from zero of the exponentials. -/
theorem ref_norm (n : Fin 10000) :
    val_main_v12 (F := Ideal) x0 x1 x3 (ix2 n (0 : Fin 1))
      = 0 + ∑ d : Fin 32, Ideal.exp (score x0 x1 x3 n d - val_main_v7 (F := Ideal) x0 x1 x3 (ix2 n (0 : Fin 1))) := by
  rw [val_main_v12_apply, val_main_cst_1_apply, Ideal.ofBits_def, Ideal.ofBits_zero_f32]
  refine congrArg (0 + ·) (Finset.sum_congr rfl fun d _ => ?_)
  have e : idx_main_v12 (ix2 n (0 : Fin 1)) d = ix3 n d (0 : Fin 1) :=
    funext fun a => Fin.ext (by match a with | ⟨0, _⟩ => rfl | ⟨1, _⟩ => rfl | ⟨2, _⟩ => rfl)
  rw [e, ref_exp]

/-- The weighted feature at (n, d, c). -/
theorem ref_weighted (n : Fin 10000) (d : Fin 32) (c : Fin 128) :
    val_main_v17 (F := Ideal) x0 x1 x2 x3 (ix3 n d c)
      = Ideal.div (Ideal.exp (score x0 x1 x3 n d - val_main_v7 (F := Ideal) x0 x1 x3 (ix2 n (0 : Fin 1))))
          (0 + ∑ d' : Fin 32, Ideal.exp (score x0 x1 x3 n d' - val_main_v7 (F := Ideal) x0 x1 x3 (ix2 n (0 : Fin 1))))
        * x2 (ix3 n d c) := by
  rw [val_main_v17_apply, val_main_v16_apply]
  have e16 : idx_main_v16 (ix3 n d c) = ix3 n d (0 : Fin 1) :=
    funext fun a => Fin.ext (by match a with | ⟨0, _⟩ => rfl | ⟨1, _⟩ => rfl | ⟨2, _⟩ => rfl)
  rw [e16, val_main_v15_apply, val_main_v14_apply, val_main_v13_apply, ref_exp]
  have e13 : idx_main_v13 (idx_main_v14 (ix3 n d (0 : Fin 1))) = ix2 n (0 : Fin 1) :=
    funext fun a => Fin.ext (by match a with | ⟨0, _⟩ => rfl | ⟨1, _⟩ => rfl)
  rw [e13, ref_norm]
  rfl

/-- THE REFERENCE'S RESULT is the attention reduce of its arguments, when their entries are real numbers. -/
theorem ref_eq (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v18 (F := Ideal) x0 x1 x2 x3 = attn x0 x1 x2 x3 := by
  funext i
  obtain ⟨n, c, rfl⟩ : ∃ (n : Fin 10000) (c : Fin 128), i = ix2 n c := ⟨i 0, i 1, eq_ix2 i⟩
  rw [attn_apply, val_main_v18_apply, val_main_cst_2_apply, Ideal.ofBits_def, Ideal.ofBits_zero_f32]
  have hs := score_real x0 x1 x3 h0 h1 h3 n
  choose σ hσ using hs
  choose φ hφ using fun d : Fin 32 => h2 (ix3 n d c)
  obtain ⟨μ, hμ⟩ := ref_max_real x0 x1 x3 n (fun d => ⟨σ d, hσ d⟩)
  rw [← Cert.SoftmaxLaw.shift (fun d => score x0 x1 x3 n d) (fun d => x2 (ix3 n d c))
    (val_main_v7 (F := Ideal) x0 x1 x3 (ix2 n (0 : Fin 1))) σ φ μ hσ hφ hμ]
  refine congrArg (0 + ·) (Finset.sum_congr rfl fun d _ => ?_)
  have e : idx_main_v18 (ix2 n c) d = ix3 n d c :=
    funext fun a => Fin.ext (by match a with | ⟨0, _⟩ => rfl | ⟨1, _⟩ => rfl | ⟨2, _⟩ => rfl)
  rw [e, ref_weighted]

end Cert.ReferenceIdeal.RefValue

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.Finite.lean ====
/-
  The precondition makes every argument entry a real number.

  The precondition is the conjunction, over the four argument arrays, of "every entry x has |x| < +∞"; read at the ideal
  float values, where an entry is an extended real, each conjunct says that no entry of that array is an infinity.
-/
import proofs.«125559_g1451698946386_cont_week2b_1105_9_alg».proof.Pre_finite_inputs
import proofs.«125559_g1451698946386_cont_week2b_1105_9_alg».proof.Proof.Gen.Pre_finite_inputs
import proofs.«125559_g1451698946386_cont_week2b_1105_9_alg».proof.Proof.LibFinite
import Idealize.ShloMosaic.Lib.Affine
import Idealize.ShloMosaic.Lib.ValueIdx

noncomputable section

namespace Cert.Pre_finite_inputs.Entries

open Cert.Pre_finite_inputs Idealize.ShloMosaic

/-- If the printed finiteness test of the four arrays is 1, every entry of each array is a real number. -/
theorem real_of_pre (a0 : FVec Ideal S10000x128 .f32) (a1 a2 : FVec Ideal S10000x32x128 .f32) (a3 : FVec Ideal S1x128 .f32)
    (h : fn (F := Ideal) a0 a1 a2 a3 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal)) := by
  have h0 := congrFun h ValueIdx.ix0
  dsimp only [fn, fn_part1, andi] at h0
  rw [IntOp.andi_eq_one, IntOp.andi_eq_one, IntOp.andi_eq_one] at h0
  obtain ⟨⟨⟨e0, e1⟩, e2⟩, e3⟩ := h0
  exact ⟨Cert.Finite.real_of_all a0 _ (fun _ => rfl) _ _ _ _ e0,
    Cert.Finite.real_of_all a1 _ (fun _ => rfl) _ _ _ _ e1,
    Cert.Finite.real_of_all a2 _ (fun _ => rfl) _ _ _ _ e2,
    Cert.Finite.real_of_all a3 _ (fun _ => rfl) _ _ _ _ e3⟩

end Cert.Pre_finite_inputs.Entries

end
-- ==== Proof.lean ====
/-
  A fused attention reduce against its plain reference, on the extended reals.

  Both programs take a1 : [10000, 128], a2, ft : [10000, 32, 128] and a weight row W : [1, 128]. For node n and neighbour d
  the score is s n d = ∑ k, tanh (a1 (n, k) + a2 (n, d, k)) · W (0, k). The reference takes the softmax of the scores over
  the 32 neighbours — exp (s - max s) over the sum of those exponentials — and sums the neighbours' features ft with these
  weights. The kernel, on blocks of 400 nodes, gets the scores on every lane at once by a product with the weight row spread
  into a 128 × 128 matrix, drops the subtraction of the maximum, and divides once:
  (∑ d, exp (s n d) · ft (n, d, c)) / (∑ d, exp (s n d)).

  With finite inputs every score is a real number, so is their maximum, and shifting all scores by one real number changes
  neither side: both are the same function of the arguments (Spec.lean's attn), index by index. The kernel's run is read
  block by block (KernelBody.lean, AttnValue.lean), the reference's one operation at a time (RefValue.lean), the shift
  law is LibSoftmaxShift.lean, and Finite.lean reads the precondition. No operation of the kernel is rewritten for the reading
  over the extended reals, so the idealized kernel is the kernel's own text.
-/
import proofs.«125559_g1451698946386_cont_week2b_1105_9_alg».proof.Defs
import proofs.«125559_g1451698946386_cont_week2b_1105_9_alg».proof.Proof.Gen.Kernel
import proofs.«125559_g1451698946386_cont_week2b_1105_9_alg».proof.Proof.Gen.Kernel.Skeleton
import proofs.«125559_g1451698946386_cont_week2b_1105_9_alg».proof.Proof.Gen.Kernel.Launch
import proofs.«125559_g1451698946386_cont_week2b_1105_9_alg».proof.Proof.Gen.Kernel.Points
import proofs.«125559_g1451698946386_cont_week2b_1105_9_alg».proof.Proof.Gen.Kernel.Frame
import proofs.«125559_g1451698946386_cont_week2b_1105_9_alg».proof.Proof.Gen.KernelIdeal
import proofs.«125559_g1451698946386_cont_week2b_1105_9_alg».proof.Proof.Gen.KernelIdeal.Skeleton
import proofs.«125559_g1451698946386_cont_week2b_1105_9_alg».proof.Proof.Gen.KernelIdeal.Launch
import proofs.«125559_g1451698946386_cont_week2b_1105_9_alg».proof.Proof.Gen.KernelIdeal.Points
import proofs.«125559_g1451698946386_cont_week2b_1105_9_alg».proof.Proof.Gen.KernelIdeal.Frame
import proofs.«125559_g1451698946386_cont_week2b_1105_9_alg».proof.Proof.Gen.ReferenceIdeal
import proofs.«125559_g1451698946386_cont_week2b_1105_9_alg».proof.Proof.Gen.Pre_finite_inputs
import proofs.«125559_g1451698946386_cont_week2b_1105_9_alg».proof.Proof.Gen.KernelIdeal.Value
import proofs.«125559_g1451698946386_cont_week2b_1105_9_alg».proof.Proof.Gen.ReferenceIdeal.Run
import proofs.«125559_g1451698946386_cont_week2b_1105_9_alg».proof.Proof.Gen.ReferenceIdeal.Read
import proofs.«125559_g1451698946386_cont_week2b_1105_9_alg».proof.Proof.Spec
import proofs.«125559_g1451698946386_cont_week2b_1105_9_alg».proof.Proof.AttnValue
import proofs.«125559_g1451698946386_cont_week2b_1105_9_alg».proof.Proof.RefValue
import proofs.«125559_g1451698946386_cont_week2b_1105_9_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on finite arguments both programs end with the attention reduce of the arguments: the kernel
    block by block, the reference after the shift of its softmax by the real maximum of the scores is undone. -/
theorem algebraic : Cert.algebraic_KernelIdeal_ReferenceIdeal := by
  intro m ρ m' ρ' hpre hagree
  refine ⟨fun c => Cert.Attn.attn (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq (F := Ideal)
    (m' ((c : Thread Cert.ReferenceIdeal.nD Cert.ReferenceIdeal.τ).loc Cert.ReferenceIdeal.main_arg0))
    (m' ((c : Thread Cert.ReferenceIdeal.nD Cert.ReferenceIdeal.τ).loc Cert.ReferenceIdeal.main_arg1))
    (m' ((c : Thread Cert.ReferenceIdeal.nD Cert.ReferenceIdeal.τ).loc Cert.ReferenceIdeal.main_arg2))
    (m' ((c : Thread Cert.ReferenceIdeal.nD Cert.ReferenceIdeal.τ).loc Cert.ReferenceIdeal.main_arg3))).trans ?_
  rw [(hagree c).1, (hagree c).2.1, (hagree c).2.2.1, (hagree c).2.2.2]
  obtain ⟨h0, h1, h2, h3⟩ := Cert.Pre_finite_inputs.Entries.real_of_pre _ _ _ _ (hpre c)
  exact Cert.ReferenceIdeal.RefValue.ref_eq _ _ _ _ h0 h1 h2 h3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
